-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S20000x300 : Shape := ⟨2, ![20000, 300]⟩
abbrev S2048x300 : Shape := ⟨2, ![2048, 300]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S20000x300 : S_.BroadcastsInDim S20000x300 (![] : Fin 0 → Fin S20000x300.rank)
  reducesTo_S20000x300_S_d0_1 : S20000x300.ReducesTo [0, 1] S_
  bcast_S_S2048x300 : S_.BroadcastsInDim S2048x300 (![] : Fin 0 → Fin S2048x300.rank)
  reducesTo_S2048x300_S_d0_1 : S2048x300.ReducesTo [0, 1] S_

variable [Facts]

def fn {F : FTy → Type} [FloatOps F] (main_arg0 : FVec F S4096x2048 .f32) (main_arg1 : FVec F S20000x300 .f32) (main_arg2 : FVec F S2048x300 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S20000x300 .f32 := Host.absf main_arg1
  let main_cst_0 : FVec F S_ .f32 := constant S_ .f32 0x7F800000#32
  let main_v5 : FVec F S20000x300 .f32 := broadcastInDim S20000x300 ![] bcast_S_S20000x300 main_cst_0
  let main_v6 : IVec S20000x300 1 := cmpf .olt main_v4 main_v5
  let main_c_1 : IVec S_ 1 := constantI S_ 1 1#1
  let main_v7 : IVec S_ 1 := (fun x v => Host.reduce IntOp.andi x v reducesTo_S20000x300_S_d0_1 h_S_) main_v6 main_c_1
  let main_v8 : IVec S_ 1 := andi main_v3 main_v7
  let main_v9 : FVec F S2048x300 .f32 := Host.absf main_arg2
  let main_cst_2 : FVec F S_ .f32 := constant S_ .f32 0x7F800000#32
  let main_v10 : FVec F S2048x300 .f32 := broadcastInDim S2048x300 ![] bcast_S_S2048x300 main_cst_2
  let main_v11 : IVec S2048x300 1 := cmpf .olt main_v9 main_v10
  let main_c_3 : IVec S_ 1 := constantI S_ 1 1#1
  let main_v12 : IVec S_ 1 := (fun x v => Host.reduce IntOp.andi x v reducesTo_S2048x300_S_d0_1 h_S_) main_v11 main_c_3
  let main_v13 : IVec S_ 1 := andi main_v8 main_v12
  main_v13
-- ==== Kernel.lean ====
abbrev S4096x2048 : Shape := ⟨2, ![4096, 2048]⟩
abbrev S20000x300 : Shape := ⟨2, ![20000, 300]⟩
abbrev S2048x300 : Shape := ⟨2, ![2048, 300]⟩
abbrev S4096x300 : Shape := ⟨2, ![4096, 300]⟩
abbrev S1024x2048 : Shape := ⟨2, ![1024, 2048]⟩
abbrev S1024x300 : Shape := ⟨2, ![1024, 300]⟩
abbrev S4096x20000 : Shape := ⟨2, ![4096, 20000]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S20000x300, .f32⟩
  | .hbm, ⟨2, _⟩ => ⟨S2048x300, .f32⟩
  | .hbm, ⟨3, _⟩ => ⟨S4096x300, .f32⟩
  | .hbm, ⟨4, _⟩ => ⟨S4096x20000, .f32⟩
  | .local _ .vmem, ⟨0, _⟩ => ⟨S1024x2048, .f32⟩
  | .local _ .vmem, ⟨1, _⟩ => ⟨S1024x2048, .f32⟩
  | .local _ .vmem, ⟨2, _⟩ => ⟨S2048x300, .f32⟩
  | .local _ .vmem, ⟨3, _⟩ => ⟨S1024x300, .f32⟩
  | .local _ .vmem, ⟨4, _⟩ => ⟨S1024x300, .f32⟩
  | .local _ .vmem, ⟨5, _⟩ => ⟨S4096x300, .f32⟩
  | .local _ .vmem, ⟨6, _⟩ => ⟨S1024x300, .f32⟩
  | .local _ .vmem, ⟨7, _⟩ => ⟨S1024x300, .f32⟩
  | .local _ .vmem, ⟨8, _⟩ => ⟨S1024x1024, .f32⟩
  | .local _ .vmem, ⟨9, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![20, 4], ![false, false]⟩

def k1_mult1 (i : grid1.Coords) : BitVec 32 :=
  let arg1 : BitVec 32 := BitVec.ofNat 32 (i 1).val
  let c1024_i32 : BitVec 32 := 1024#32
  let v0 : BitVec 32 := Scalar.muli arg1 c1024_i32
  v0
def k1_off1 (i : grid1.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v2 : Index := Scalar.indexCast v1
  let c0 : Index := 0#32
  ![v2.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .vmem S4096x300 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1024x300 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x300_S2048x300_0_0 : ∀ a, (![0, 0] : Fin 2 → Nat) a + S2048x300.size a ≤ S2048x300.size a
  h_S2048x300 : 0 < S2048x300.numel
  inb_S1024x300_S1024x300_0_0 : ∀ a, (![0, 0] : Fin 2 → Nat) a + S1024x300.size a ≤ S1024x300.size a
  h_S1024x300 : 0 < S1024x300.numel
  shapeCasts_S1024x300_S1024x300 : S1024x300.ShapeCasts S1024x300
  inb_S1024x1024_S1024x1024_0_0 : ∀ a, (![0, 0] : Fin 2 → Nat) a + S1024x1024.size a ≤ S1024x1024.size a
  h_S1024x1024 : 0 < S1024x1024.numel
  dot_S1024x2048_S2048x300_S1024x300_1_0_0_1_n_n_wf : DotDims.WF S1024x2048 S2048x300 S1024x300 [1] [0] [0] [1] [] []
  dot_S1024x300_S1024x300_S1024x1024_1_1_0_0_n_n_wf : DotDims.WF S1024x300 S1024x300 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .f32 = 32 ∨ (Rect.block (s := S4096x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x300.size a ≤ S2048x300.size a
  hwx0_1 : ∀ i : grid0.Coords, EltTy.bits .f32 = 32 ∨ (Rect.block (s := S2048x300) S2048x300.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x300.size a ≤ S4096x300.size a
  hwx0_2 : ∀ i : grid0.Coords, EltTy.bits .f32 = 32 ∨ (Rect.block (s := S4096x300) S1024x300.size (cc0_transform_2 i) (hinb0_2 i)).WholeWords (EltTy.packing .f32)
  hrank1 : 0 < grid1.rank
  k1_mult1_dvd : ∀ i : grid1.Coords, 8 ∣ (k1_mult1 i).toNat
  k1_off1_inb : ∀ i : grid1.Coords, ∀ a, (k1_off1 i) a + S1024x300.size a ≤ S4096x300.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x300.size a ≤ S4096x300.size a
  hwx1_0 : ∀ i : grid1.Coords, EltTy.bits .f32 = 32 ∨ (Rect.block (s := S4096x300) S4096x300.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S1024x300.size a < S20000x300.size a
  hwx1_1 : ∀ i : grid1.Coords, EltTy.bits .f32 = 32 ∨ (Rect.unit (s := S20000x300) (fun a => cc1_transform_1 i a * S1024x300.size a) (fun a => (Pipeline.Clip.of (cc1_transform_1 i a) (S1024x300.size a) (S20000x300.size a)).extent (S1024x300.size a)) fun a => Pipeline.Clip.inb (Pipeline.Clip.ok_of (hstart1_1 i a))).WholeWords (EltTy.packing .f32)
  hwxs1_1 : ∀ i : grid1.Coords, EltTy.bits .f32 = 32 ∨ (Rect.unit (s := S1024x300) (fun _ => 0) (fun a => (Pipeline.Clip.of (cc1_transform_1 i a) (S1024x300.size a) (S20000x300.size a)).extent (S1024x300.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1024x1024.size a < S4096x20000.size a
  hwx1_2 : ∀ i : grid1.Coords, EltTy.bits .f32 = 32 ∨ (Rect.unit (s := S4096x20000) (fun a => cc1_transform_2 i a * S1024x1024.size a) (fun a => (Pipeline.Clip.of (cc1_transform_2 i a) (S1024x1024.size a) (S4096x20000.size a)).extent (S1024x1024.size a)) fun a => Pipeline.Clip.inb (Pipeline.Clip.ok_of (hstart1_2 i a))).WholeWords (EltTy.packing .f32)
  hwxs1_2 : ∀ i : grid1.Coords, EltTy.bits .f32 = 32 ∨ (Rect.unit (s := S1024x1024) (fun _ => 0) (fun a => (Pipeline.Clip.of (cc1_transform_2 i a) (S1024x1024.size a) (S4096x20000.size a)).extent (S1024x1024.size a)) fun a => (Nat.zero_add _).trans_le (Pipeline.Clip.extent_le (Pipeline.Clip.ok_of (hstart1_2 i a)))).WholeWords (EltTy.packing .f32)

variable [Facts₀]

def dot_S1024x2048_S2048x300_S1024x300_1_0_0_1_n_n : DotDims S1024x2048 S2048x300 S1024x300 where
  lhsContracting := [1]
  rhsContracting := [0]
  lhsNonContracting := [0]
  rhsNonContracting := [1]
  lhsBatch := []
  rhsBatch := []
  wf := dot_S1024x2048_S2048x300_S1024x300_1_0_0_1_n_n_wf
def dot_S1024x300_S1024x300_S1024x1024_1_1_0_0_n_n : DotDims S1024x300 S1024x300 S1024x1024 where
  lhsContracting := [1]
  rhsContracting := [1]
  lhsNonContracting := [0]
  rhsNonContracting := [0]
  lhsBatch := []
  rhsBatch := []
  wf := dot_S1024x300_S1024x300_S1024x1024_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x300.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S4096x300.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg1) S1024x300.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v1) S1024x1024.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x2048 : Shape := ⟨2, ![4096, 2048]⟩
abbrev S20000x300 : Shape := ⟨2, ![20000, 300]⟩
abbrev S2048x300 : Shape := ⟨2, ![2048, 300]⟩
abbrev S4096x300 : Shape := ⟨2, ![4096, 300]⟩
abbrev S300x20000 : Shape := ⟨2, ![300, 20000]⟩
abbrev S4096x20000 : Shape := ⟨2, ![4096, 20000]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S20000x300, .f32⟩
  | .hbm, ⟨2, _⟩ => ⟨S2048x300, .f32⟩
  | .hbm, ⟨3, _⟩ => ⟨S4096x300, .f32⟩
  | .hbm, ⟨4, _⟩ => ⟨S300x20000, .f32⟩
  | .hbm, ⟨5, _⟩ => ⟨S4096x20000, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  transposes_S20000x300_S300x20000_1_0 : S20000x300.Transposes [1, 0] S300x20000
  dot_S4096x2048_S2048x300_S4096x300_1_0_0_1_n_n_wf : DotDims.WF S4096x2048 S2048x300 S4096x300 [1] [0] [0] [1] [] []
  dot_S4096x300_S300x20000_S4096x20000_1_0_0_1_n_n_wf : DotDims.WF S4096x300 S300x20000 S4096x20000 [1] [0] [0] [1] [] []

variable [Facts₀]

def dot_S4096x2048_S2048x300_S4096x300_1_0_0_1_n_n : DotDims S4096x2048 S2048x300 S4096x300 where
  lhsContracting := [1]
  rhsContracting := [0]
  lhsNonContracting := [0]
  rhsNonContracting := [1]
  lhsBatch := []
  rhsBatch := []
  wf := dot_S4096x2048_S2048x300_S4096x300_1_0_0_1_n_n_wf
def dot_S4096x300_S300x20000_S4096x20000_1_0_0_1_n_n : DotDims S4096x300 S300x20000 S4096x20000 where
  lhsContracting := [1]
  rhsContracting := [0]
  lhsNonContracting := [0]
  rhsNonContracting := [1]
  lhsBatch := []
  rhsBatch := []
  wf := dot_S4096x300_S300x20000_S4096x20000_1_0_0_1_n_n_wf

class Facts : Prop extends Facts₀ where

variable [Facts]
-- ==== Proof.IdealStages.lean ====
/-
  The staging-buffer contents of the two matrix products, point by point.

  The program is two pipelined products: first  xw = x · W  over four row tiles of 1024 rows
  (x : 4096 × 2048, W : 2048 × 300), then  out = xw · Eᵀ  over a 20 × 4 grid of (class tile, row tile)
  points (E : 20000 × 300), the class tile outermost. 20 · 1024 = 20480 exceeds 20000, so the last class
  tile's block of E and the last column block of the result overhang their arrays by 480 rows / columns:
  the fetch fills only the first 544 rows of the buffer and the write-back moves only the first 544 columns.

  This module names, for each product and each grid point, what every window's staging buffer holds after
  the body (the proof data of the pipeline library). For the first product these are the blocks of x and W
  and the product of the two blocks. For the second, the whole of xw, the block of E filled out past the
  array's end, and a parameter `o` for the result's buffer, chosen by the importing module (the exact
  product on the columns inside the array at the extended reals; left unnamed where only the frame is wanted).
-/
import proofs.«122478_j8899172237562_2_alg».proof.Proof.Gen.KernelIdeal.Launch
import proofs.«122478_j8899172237562_2_alg».proof.Proof.Gen.KernelIdeal.Skeleton
import proofs.«122478_j8899172237562_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

-- the TensorCore's buffer contents when a product's region is entered
variable (V : (c : Dev nD) → (b : Ref sig .tc) → Buf (Elt F) ((c : Thread nD τ).loc b))

/-! ## The first product, xw = x · W -/

/-- Window `w`'s block at row tile `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's three accesses: each the whole of its staging buffer. -/
abbrev rx0 : Rect S1024x2048 := Rect.unit (s := S1024x2048) ![0, 0] S1024x2048.size inb_S1024x2048_S1024x2048_0_0
abbrev rw0 : Rect S2048x300 := Rect.unit (s := S2048x300) ![0, 0] S2048x300.size inb_S2048x300_S2048x300_0_0
abbrev ro0 : Rect S1024x300 := Rect.unit (s := S1024x300) ![0, 0] S1024x300.size inb_S1024x300_S1024x300_0_0

/-- The result's staging buffer after the body: its one store, the product of the two loaded blocks. -/
def out0_2 (x0 : Vec F S1024x2048 .f32) (x1 : Vec F S2048x300 .f32) : Vec F S1024x300 .f32 :=
  View.canon [⟨ro0, k0_pay1 (View.ld x0 rx0) (View.ld x1 rw0)⟩]

/-- The proof data of the first product on core `c`: the arrays as the region finds them; after the body at row
    tile `t` the buffers of x and W hold their blocks and the result's the product of the two; the invariant is the
    untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## The second product, out = xw · Eᵀ -/

/-- Window `w`'s block at grid point `t`, its part inside the array, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of E at point `t` filled out to the whole buffer: past the array's end the zero word, which nothing reads. -/
def eblk (c : Dev nD) (t : Fin cfg1.N) : S1024x300.Idx → Elt F .f32 :=
  win1_1.fill (grid1.coords t) (fun _ => Scalar.ofBits .f32 0#32) (iblk1 V c 1 t)

/-- The proof data of the second product on core `c`: the arrays as the region finds them; after the body at point
    `t` the buffer of xw holds all of xw, the buffer of E its block (filled out), the result's `o t`. -/
def dat1 (o : Fin cfg1.N → S1024x1024.Idx → Elt F .f32) (c : Dev nD) : Dat τ (Elt F) Unit ℕ (UR sig nD τ) ℕ cfg1 c where
  A w := V c (Pipeline.arrRef spec1 w)
  after w t := match w with
    | ⟨0, _⟩ => iblk1 V c 0 t
    | ⟨1, _⟩ => eblk V c t
    | ⟨2, _⟩ => o t
  Φ _ := Pipeline.ΦA spec1 c
  q _ := fullShare
  owed _ := 0

theorem A_eq1 (o : Fin cfg1.N → S1024x1024.Idx → Elt F .f32) (c : Dev nD) (w : Fin cfg1.W) : (dat1 V o c).A w = V c (Pipeline.arrRef spec1 w) := by
  dsimp only [dat1]
theorem after1_0 (o : Fin cfg1.N → S1024x1024.Idx → Elt F .f32) (c : Dev nD) (t : Fin cfg1.N) : (dat1 V o c).after 0 t = iblk1 V c 0 t := by dsimp only [dat1]
theorem after1_1 (o : Fin cfg1.N → S1024x1024.Idx → Elt F .f32) (c : Dev nD) (t : Fin cfg1.N) : (dat1 V o c).after 1 t = eblk V c t := by dsimp only [dat1]
theorem after1_2 (o : Fin cfg1.N → S1024x1024.Idx → Elt F .f32) (c : Dev nD) (t : Fin cfg1.N) : (dat1 V o c).after 2 t = o t := by dsimp only [dat1]

end Cert.KernelIdeal.Hand

end
-- ==== Proof.Spec.lean ====
/-
  The two matrix products as functions of whole arrays, on the extended reals.

    xw[b, k]  = ∑_j x[b, j] · W[j, k]          (b < 4096, j < 2048, k < 300)
    out[b, c] = ∑_k xw[b, k] · E[c, k]          (c < 20000)

  Both the kernel's two pipelined products and the reference's two host products compute exactly these sums
  at the ideal values: rounding to bf16 is the identity there, a matrix unit's product into a zero accumulator
  is the plain sum over the contraction index, and so is the host's dot_general. No law of the extended reals
  beyond reading each product at an index is needed: the two sides group and order their sums alike.
-/
import Idealize.ShloMosaic.PureOps.Ideal
import Idealize.ShloMosaic.Lib.ValueIdx

noncomputable section

open scoped BigOperators

namespace Cert.Spec

open Idealize.ShloMosaic Idealize.ShloMosaic.ValueIdx

/-- The first product: row `b` of x against column `k` of W. -/
def XW (x : (⟨2, ![4096, 2048]⟩ : Shape).Idx → EReal) (w : (⟨2, ![2048, 300]⟩ : Shape).Idx → EReal) :
    (⟨2, ![4096, 300]⟩ : Shape).Idx → EReal :=
  fun i => ∑ j : Fin 2048, x (ix2 (n0 := 4096) (n1 := 2048) (i 0) j) * w (ix2 (n0 := 2048) (n1 := 300) j (i 1))

/-- The second product: row `b` of xw against row `c` of E (the class embedding), contracted over the 300 features. -/
def OUT (xw : (⟨2, ![4096, 300]⟩ : Shape).Idx → EReal) (e : (⟨2, ![20000, 300]⟩ : Shape).Idx → EReal) :
    (⟨2, ![4096, 20000]⟩ : Shape).Idx → EReal :=
  fun i => ∑ k : Fin 300, xw (ix2 (n0 := 4096) (n1 := 300) (i 0) k) * e (ix2 (n0 := 20000) (n1 := 300) (i 1) k)

end Cert.Spec

end
-- ==== Proof.IdealOutBlocks.lean ====
/-
  The result of the second product, block by block, at the ideal values.

  `gOut` is the whole result array out = xw · Eᵀ as a function of the arrays the second product's region finds
  (xw in the first product's result buffer, E in its argument). `oblk t` is what the result's staging buffer is
  stated to hold after the body at grid point `t`: block `t` of `gOut` on the columns inside the array — the part
  the write-back moves — and the zero word past the array's end, where the obligation states nothing.
-/
import proofs.«122478_j8899172237562_2_alg».proof.Proof.IdealStages
import proofs.«122478_j8899172237562_2_alg».proof.Proof.Spec

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable (V : (c : Dev nD) → (b : Ref sig .tc) → Buf (Elt Ideal) ((c : Thread nD τ).loc b))

/-- The whole result array of the second product, from the arrays its region is entered with. -/
def gOut (c : Dev nD) : Buf (Elt Ideal) ((c : Thread nD τ).loc main_v1) :=
  Cert.Spec.OUT (V c main_v0) (V c main_arg1)

/-- The result's staging buffer after the body at point `t`: block `t` of `gOut` inside the array, zero past its end. -/
def oblk (c : Dev nD) (t : Fin cfg1.N) : S1024x1024.Idx → Elt Ideal .f32 :=
  win1_2.fill (grid1.coords t) (fun _ => (0 : EReal)) ((win1_2.blk t).view.read (Elt Ideal) (gOut V c))

/-- The whole result array of the first product, from the arrays its region is entered with. -/
def gXW (c : Dev nD) : Buf (Elt Ideal) ((c : Thread nD τ).loc main_v0) :=
  Cert.Spec.XW (V c main_arg0) (V c main_arg2)

end Cert.KernelIdeal.Hand

end
-- ==== Proof.IdealRun.lean ====
/-
  The run of the idealized program: the two products one after the other, from the launch memory to the return.

  @main is the first product's region followed by the second's, with no host operation between. Between the two
  the TensorCore's unscoped buffers hold: at launch the memory `m`; after the first product the same with xw's
  buffer at what the four row tiles wrote back; after the second the same with the result's buffer at what the
  eighty (class tile, row tile) points wrote back, each write-back cut at the array's end. Given the two bodies'
  obligations (hypotheses here), every weakly fair execution terminates and the final memory holds every unscoped
  buffer at those contents: the result array by name, and the three arguments as launched, since the first product
  only reads x and W and the second only reads xw and E.
-/
import proofs.«122478_j8899172237562_2_alg».proof.Proof.IdealStages
import proofs.«122478_j8899172237562_2_alg».proof.Proof.IdealOutBlocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The buffers' contents at the three boundaries -/

/-- Core `c`'s buffers at launch: what the first product's region is entered with. -/
abbrev W0 : Dev nD → Valuation τ sig (Elt Ideal) := fun c b => (s₀ m ρ).mem ((c : Dev nD), b)
abbrev V0 : (c : Dev nD) → (b : Ref sig .tc) → Buf (Elt Ideal) ((c : Thread nD τ).loc b) := fun c b => W0 m ρ c b

/-- After the first product: its arrays at what its write-backs leave (x and W as entered, xw's buffer overwritten
    row tile by row tile), every other buffer as entered. The second product's region is entered with these. -/
def W2 (c : Dev nD) : Valuation τ sig (Elt Ideal) :=
  Pipeline.withArrays spec0 c (W0 m ρ c) fun w => (dat0 (V0 m ρ) c).arrAt w cfg0.N
theorem W2_arr (c : Dev nD) (w : Fin cfg0.W) :
    W2 m ρ c (Proc.devRef .tc (Pipeline.arrRef spec0 w)) = (dat0 (V0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt Ideal) ((c : Thread nD τ).loc b) := fun c b => W2 m ρ c b
theorem hF0 (c : Dev nD) (w : Fin cfg0.W) : (dat0 (V0 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V0 m ρ c b :=
  fun b hb => W2_of_ne m ρ c b fun w e => hb (Finset.mem_image.mpr ⟨w, Finset.mem_univ _, e⟩)

/-- The second product's proof data at the contents it is entered with, the result's buffer stated block by block. -/
abbrev d1 (c : Dev nD) : Dat τ (Elt Ideal) Unit ℕ (UR sig nD τ) ℕ cfg1 c := dat1 (V2 m ρ) (oblk (V2 m ρ) c) c

/-- After the second product: its arrays at what its write-backs leave, every other buffer as entered. -/
def W4 (c : Dev nD) : Valuation τ sig (Elt Ideal) :=
  Pipeline.withArrays spec1 c (W2 m ρ c) fun w => (d1 m ρ c).arrAt w cfg1.N
theorem W4_arr (c : Dev nD) (w : Fin cfg1.W) :
    W4 m ρ c (Proc.devRef .tc (Pipeline.arrRef spec1 w)) = (d1 m ρ c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
abbrev V4 : (c : Dev nD) → (b : Ref sig .tc) → Buf (Elt Ideal) ((c : Thread nD τ).loc b) := fun c b => W4 m ρ c b
theorem hF1 (c : Dev nD) (w : Fin cfg1.W) : (d1 m ρ c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-! ### The arguments end as launched -/

/-- x is the first product's input window 0 and bypasses the second product. -/
theorem W4_main_arg0 (c : Dev nD) : W4 m ρ c (Proc.devRef .tc main_arg0) = m ((c : Thread nD τ).loc main_arg0) :=
  calc W4 m ρ c (Proc.devRef .tc main_arg0)
    _ = W2 m ρ c (Proc.devRef .tc main_arg0) := W4_of_ne m ρ c main_arg0 (by decide)
    _ = W0 m ρ c (Proc.devRef .tc main_arg0) := (W2_arr m ρ c 0).trans (((dat0 (V0 m ρ) c).arrAt_in 0 rfl _).trans (A_eq0 (V0 m ρ) c 0))
    _ = m ((c : Thread nD τ).loc main_arg0) := rfl
/-- E bypasses the first product and is the second product's input window 1. -/
theorem W4_main_arg1 (c : Dev nD) : W4 m ρ c (Proc.devRef .tc main_arg1) = m ((c : Thread nD τ).loc main_arg1) :=
  calc W4 m ρ c (Proc.devRef .tc main_arg1)
    _ = W2 m ρ c (Proc.devRef .tc main_arg1) := (W4_arr m ρ c 1).trans (((d1 m ρ c).arrAt_in 1 rfl _).trans (A_eq1 (V2 m ρ) _ c 1))
    _ = W0 m ρ c (Proc.devRef .tc main_arg1) := W2_of_ne m ρ c main_arg1 (by decide)
    _ = m ((c : Thread nD τ).loc main_arg1) := rfl
/-- W is the first product's input window 1 and bypasses the second product. -/
theorem W4_main_arg2 (c : Dev nD) : W4 m ρ c (Proc.devRef .tc main_arg2) = m ((c : Thread nD τ).loc main_arg2) :=
  calc W4 m ρ c (Proc.devRef .tc main_arg2)
    _ = W2 m ρ c (Proc.devRef .tc main_arg2) := W4_of_ne m ρ c main_arg2 (by decide)
    _ = W0 m ρ c (Proc.devRef .tc main_arg2) := (W2_arr m ρ c 1).trans (((dat0 (V0 m ρ) c).arrAt_in 1 rfl _).trans (A_eq0 (V0 m ρ) c 1))
    _ = m ((c : Thread nD τ).loc main_arg2) := rfl
/-- The result array ends at what the second product's write-backs leave. -/
theorem W4_main_v1 (c : Dev nD) : W4 m ρ c (Proc.devRef .tc main_v1) = (d1 m ρ c).arrAt 2 cfg1.N := W4_arr m ρ c 2
/-- xw, as the second product finds it, is what the first product's write-backs left. -/
theorem V2_main_v0 (c : Dev nD) : V2 m ρ c main_v0 = (dat0 (V0 m ρ) c).arrAt 2 cfg0.N := W2_arr m ρ c 2
/-- x, W and E, as the second product finds them, are as launched. -/
theorem V2_main_arg1 (c : Dev nD) : V2 m ρ c main_arg1 = m ((c : Thread nD τ).loc main_arg1) := W2_of_ne m ρ c main_arg1 (by decide)

/-! ## The proof data family and the thread state -/

abbrev adm : (p : Fin 2) → (pcfgs (F := Ideal) p).Adm := fun p => (cfgs p).toPCfg_adm
/-- Both products' proof data, each at the contents its region is entered with. -/
def pdats : (p : Fin 2) → (c : Dev nD) → Dat τ (Elt Ideal) Unit ℕ (UR sig nD τ) ℕ (Pipeline.pin (pcfgs (F := Ideal)) adm p) c
  | ⟨0, _⟩ => fun c => dat0 (V0 m ρ) c
  | ⟨1, _⟩ => fun c => d1 m ρ c
abbrev 𝒱₀ : Variants := Variants.none
abbrev L : GSem nD τ sig → Finset Unit := fun _ => ∅
abbrev lv : GSem nD τ sig → Unit → ℕ := fun _ _ => 0
/-- What rides beside the buffers through both regions: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

section Run

variable (hb0 : ∀ c : Dev nD, BodyObligation (dat0 (F := Ideal) (V0 m ρ) c) (defs₀ (F := Ideal)) Variants.none () Set.univ)
variable (hb1 : ∀ c : Dev nD, BodyObligationLoose (d1 m ρ c) (defs₀ (F := Ideal)) Variants.none () Set.univ)
include hb0 hb1

/-! ## The two regions as segments -/

set_option backward.isDefEq.respectTransparency.types false in
/-- The first product's region: entered from every unscoped buffer at the launch contents, left at `W2`. -/
def reg0 : Pipeline.RegionSeg (pcfgs (F := Ideal)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := Ideal)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m ρ) ((pdats m ρ 0 c).share_full fun _ => rfl)
      (V0 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second product's region: entered from every unscoped buffer at `W2`, left at `W4`. -/
def reg1 : Pipeline.RegionSeg (pcfgs (F := Ideal)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := hb1 c
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := Ideal)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m ρ) ((pdats m ρ 1 c).share_full fun _ => rfl)
      (V2 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the two segments, and the launch -/

abbrev segs : List (Pipeline.Seg (pcfgs (F := Ideal)) adm (pdats m ρ) () defs₀ 𝒱₀ L lv) :=
  [ .region (reg0 m ρ hb0), .region (reg1 m ρ hb1) ]
theorem main_run (c : Dev nD) : main (F := Ideal) c = Pipeline.Seg.run (segs m ρ hb0 hb1) :=
  main_segs adm (pdats m ρ) () 𝒱₀ L lv (reg0 m ρ hb0) (reg1 m ρ hb1) c

set_option backward.isDefEq.respectTransparency.types false in
/-- From any memory with zero counters every weakly fair execution of @main terminates, nothing faulting, and every
    final memory holds each unscoped buffer of each core at `W4`. -/
theorem run_main : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := Ideal)) adm (pdats m ρ) () cellOf_inj emb₁ defs₀ 𝒱₀ L lv m ρ main (segs m ρ hb0 hb1)
    (fun c Q => by rw [main_run m ρ hb0 hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Run

end Cert.KernelIdeal.Hand

end
-- ==== Proof.IdealResult.lean ====
/-
  What the idealized program computes, as a function of the launch memory.

  The run leaves the result array at what the second product's write-backs left; that is the whole array
  out = xw · Eᵀ of the arrays the second product found; of those, E is as launched and xw is what the first
  product's write-backs left, the whole array x · W of the launch contents of x and W. So the result is
  out[b, c] = ∑_k (∑_j x[b, j] · W[j, k]) · E[c, k] of the launch memory, and the three arguments end as launched.
  The bodies' obligations and the two blocks-to-array facts are hypotheses here; the importing module supplies them.
-/
import proofs.«122478_j8899172237562_2_alg».proof.Proof.IdealRun

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window BodyObligation BodyObligationLoose)

variable (m : (ℓ : Loc nD τ sig) → Buf (Elt Ideal) ℓ) (ρ : Dev nD → PrngReg)

/-- The result of the whole program from the launch memory: the second product of the first. -/
def gMain (c : Dev nD) : Buf (Elt Ideal) ((c.tc : Thread nD τ).loc main_v1) :=
  Cert.Spec.OUT (Cert.Spec.XW (m ((c.tc : Thread nD τ).loc main_arg0)) (m ((c.tc : Thread nD τ).loc main_arg2)))
    (m ((c.tc : Thread nD τ).loc main_arg1))

theorem result
    (hb0 : ∀ (V : (c : Dev nD) → (b : Ref sig .tc) → Buf (Elt Ideal) ((c : Thread nD τ).loc b)) (c : Dev nD),
      BodyObligation (dat0 (F := Ideal) V c) (defs₀ (F := Ideal)) Variants.none () Set.univ)
    (hb1 : ∀ (V : (c : Dev nD) → (b : Ref sig .tc) → Buf (Elt Ideal) ((c : Thread nD τ).loc b)) (c : Dev nD),
      BodyObligationLoose (dat1 (F := Ideal) V (oblk V c) c) (defs₀ (F := Ideal)) Variants.none () Set.univ)
    (hf0 : ∀ (V : (c : Dev nD) → (b : Ref sig .tc) → Buf (Elt Ideal) ((c : Thread nD τ).loc b)) (c : Dev nD),
      (dat0 (F := Ideal) V c).arrAt 2 cfg0.N = gXW V c)
    (hf1 : ∀ (V : (c : Dev nD) → (b : Ref sig .tc) → Buf (Elt Ideal) ((c : Thread nD τ).loc b)) (c : Dev nD),
      (dat1 (F := Ideal) V (oblk V c) c).arrAt 2 cfg1.N = gOut V c) :
    θ_run defs (onTc (τ := τ) (main (F := Ideal))) ⟨m, fun _ => 0, ρ⟩ (fun r => ∀ c : Dev nD,
      r.2.mem ((c.tc : Thread nD τ).loc main_v1) = gMain m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, ?_, ?_, ?_⟩)
    (run_main m ρ (fun c => hb0 (V0 m ρ) c) (fun c => hb1 (V2 m ρ) c))
  · refine (h c _ (mem_uc main_v1 (by decide))).trans ?_
    rw [W4_main_v1, hf1 (V2 m ρ) c]
    unfold gOut gMain
    rw [V2_main_v0, V2_main_arg1, hf0 (V0 m ρ) c]
    rfl
  · exact (h c _ (mem_uc main_arg0 (by decide))).trans (W4_main_arg0 m ρ c)
  · exact (h c _ (mem_uc main_arg1 (by decide))).trans (W4_main_arg1 m ρ c)
  · exact (h c _ (mem_uc main_arg2 (by decide))).trans (W4_main_arg2 m ρ c)

end Cert.KernelIdeal.Hand

end
-- ==== Proof.IdealGemm1Body.lean ====
/-
  The body obligation of the first product, xw = x · W.

  At each of the four row tiles the body loads the whole buffer of x and the whole buffer of W, loads (and
  never uses) the whole of the result's buffer, and stores the product of the two loaded blocks over the whole
  of the result's buffer. Both input windows hold their blocks wherever the body is called: x is fetched at
  every row tile; W at the first only, and its block index never moves afterwards. The one store covers the
  result's buffer, so after the body that buffer holds the product of the two blocks, whatever it held before.
-/
import proofs.«122478_j8899172237562_2_alg».proof.Proof.IdealStages

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the two input windows' buffers -/

/-- The buffer of x holds the block of x at every row tile, for any proof data whose array is the region-entry
    contents and whose body leaves the block in place: the window is fetched at every point, uncut, never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The buffer of W holds the block of W (all of W) at every row tile, fetched there or not: after the first
    row tile the block index has not moved, so what the first fetch put there is still this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The one store covers the result's buffer -/

theorem cover0_2 (p0 : Vec F S1024x300 .f32) (y : S1024x300.Idx) :
    ∃ pc ∈ ([⟨ro0, p0⟩] : List (View.Piece (Elt F) S1024x300 .f32)), y ∈ pc.1.set :=
  View.cover_of_tiled [⟨ro0, p0⟩] S1024x300.size (by rfl) y

/-! ## The body's triple -/

set_option maxHeartbeats 1000000 in
/-- The body on whole staging memrefs, the two inputs' at contents `x0`, `x1` and the result's at anything, runs
    to the continuation holding the inputs' as they were and the result's at the product of the two
    (`out0_2 x0 x1`): its load of the result's buffer reads whatever is there and is never used. -/
theorem sound_kernel0 (c : Dev nD) (E : Set ℕ) (i : grid0.Coords)
    (arg1 : Memref sig .tc .vmem S1024x2048 .f32) (harg1 : arg1.IsWhole) (arg2 : Memref sig .tc .vmem S2048x300 .f32) (harg2 : arg2.IsWhole)
    (arg3 : Memref sig .tc .vmem S1024x300 .f32) (harg3 : arg3.IsWhole)
    (x0 : Vec F S1024x2048 .f32) (x1 : Vec F S2048x300 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__gemm1_kernel i arg1 harg1 arg2 harg2 arg3 harg3) K := by
  simp only [cc0__gemm1_kernel_eq_skeleton]; unfold cc0__gemm1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic row tile -/

/-- What the body is called with at row tile `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any row tile: the inputs' memrefs hold their blocks, so the body's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every row tile. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealGemm2Before.lean ====
/-
  What the body of the second product finds in its three staging buffers, at every grid point.

  The buffer of xw (its one block is the whole array, fetched once at the first point and never moved) holds all of
  xw. The buffer of E holds the block of E of the point's class tile on the rows inside the array — all 1024 but
  for the last class tile, where the array ends after 544 rows — and, past them, contents `d` that nothing names;
  the block is fetched at the first of the four points of a class tile and found again, untouched, at the other three.
  The result's buffer was written back at the previous point (or is untouched, at the first): it holds anything.
-/
import proofs.«122478_j8899172237562_2_alg».proof.Proof.IdealStages
import proofs.«122478_j8899172237562_2_alg».proof.Proof.IdealOutBlocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable (V : (c : Dev nD) → (b : Ref sig .tc) → Buf (Elt Ideal) ((c : Thread nD τ).loc b))

variable (o : Fin cfg1.N → S1024x1024.Idx → Elt Ideal .f32)

/-- The buffer of xw holds the whole of xw, fetched at the point or not. -/
theorem before1_0 (c : Dev nD) (t : Fin cfg1.N) (d) : (dat1 (F := Ideal) V o c).before 0 t d = iblk1 V c 0 t :=
  ((dat1 (F := Ideal) V o c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The buffer of E holds the point's block of E on the rows inside the array and `d` past them, fetched at the
    point or not: the body leaves the block in place, and how a block is cut depends on its block index alone. -/
theorem before1_1 (c : Dev nD) (t : Fin cfg1.N) (d) :
    (dat1 (F := Ideal) V o c).before 1 t d = win1_1.fill (grid1.coords t) d (iblk1 V c 1 t) :=
  ((dat1 (F := Ideal) V o c).before_in_eq_fetched 1 rfl (fun _ => rfl)
      (fun t t' h => funext fun a => by
        show Pipeline.Clip.of (win1_1.index t a) _ _ = Pipeline.Clip.of (win1_1.index t' a) _ _
        rw [h])
      (fun t => by
        rw [after1_1]; unfold Dat.blockOf eblk iblk1; rw [A_eq1]
        exact win1_1.cut_fill _ _ _) t d).trans
    (by unfold Dat.fetched Dat.blockOf iblk1; rw [A_eq1]; try rfl)

/-- The result's buffer holds contents nothing names: every point writes it back. -/
theorem before1_2 (c : Dev nD) (t : Fin cfg1.N) (d) : (dat1 (F := Ideal) V o c).before 2 t d = d := by
  unfold Dat.before
  rw [if_neg (by rw [Window.fetch_out _ rfl t]; exact Bool.false_ne_true)]
  split
  · rfl
  · exact if_pos (flush1_2 _)

end Cert.KernelIdeal.Hand

end
-- ==== Proof.IdealGemm2Kernel.lean ====
/-
  The body of the second product, run once on whole staging buffers.

  The body loads 1024 rows of xw from the buffer holding all of xw, at the row offset 1024 · (row tile), loads the
  whole buffer of E's block, multiplies the two (contracting the 300 features of each), and stores the 1024 × 1024
  product over the whole result buffer. So from buffers holding `x0`, `x1` and anything, it ends with the first two
  unchanged and the result's holding that product of the loaded rows of `x0` and all of `x1`.
-/
import proofs.«122478_j8899172237562_2_alg».proof.Proof.IdealStages
import proofs.«122478_j8899172237562_2_alg».proof.Proof.IdealOutBlocks
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

local notation "𝕄" => MT nD τ sig Unit (Elt Ideal) ℕ (UR sig nD τ) ℕ

/-- The body's accesses: the 1024 rows of xw at the point's row offset, the whole buffer of E's block, the whole
    result buffer. -/
abbrev rxw1 (i : grid1.Coords) : Rect S4096x300 := Rect.unit (s := S4096x300) (k1_off1 i) S1024x300.size (k1_off1_inb i)
abbrev re1 : Rect S1024x300 := Rect.unit (s := S1024x300) ![0, 0] S1024x300.size inb_S1024x300_S1024x300_0_0
abbrev ro1 : Rect S1024x1024 := Rect.unit (s := S1024x1024) ![0, 0] S1024x1024.size inb_S1024x1024_S1024x1024_0_0

/-- The result's staging buffer after the body: its one store, the product of the loaded rows of xw and the loaded
    block of E. -/
def out1_2 (i : grid1.Coords) (x0 : Vec Ideal S4096x300 .f32) (x1 : Vec Ideal S1024x300 .f32) : Vec Ideal S1024x1024 .f32 :=
  View.canon [⟨ro1, k1_pay1 (View.ld x0 (rxw1 i)) (View.ld x1 re1)⟩]

/-- The zero offsets, as a constant function. -/
theorem hz2 : (![0, 0] : Fin 2 → Nat) = fun _ => 0 := funext fun a => by fin_cases a <;> rfl

/-- The one store covers the result buffer. -/
theorem cover1_2 (p0 : Vec Ideal S1024x1024 .f32) (y : S1024x1024.Idx) :
    ∃ pc ∈ ([⟨ro1, p0⟩] : List (View.Piece (Elt Ideal) S1024x1024 .f32)), y ∈ pc.1.set :=
  ⟨_, List.mem_singleton_self _, View.mem_set_unit_zero hz2 inb_S1024x1024_S1024x1024_0_0 y⟩

set_option maxHeartbeats 1000000 in
/-- The body on whole staging memrefs, the buffer of xw at `x0`, the buffer of E's block at `x1` and the result's at
    anything, runs to the continuation holding the first two as they were and the result's at `out1_2` of them. -/
theorem sound_kernel1 (c : Dev nD) (E : Set ℕ) (i : grid1.Coords)
    (arg2 : Memref sig .tc .vmem S4096x300 .f32) (harg2 : arg2.IsWhole)
    (arg3 : Memref sig .tc .vmem S1024x300 .f32) (harg3 : arg3.IsWhole)
    (arg4 : Memref sig .tc .vmem S1024x1024 .f32) (harg4 : arg4.IsWhole)
    (x0 : Vec Ideal S4096x300 .f32) (x1 : Vec Ideal S1024x300 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 i x0 x1)) -∗ K ⟨⟩))
      ⊢ wp frame (wpE (defs₀ (F := Ideal)) Variants.none c none) E (cc1__gemm2_kernel i arg2 harg2 arg3 harg3 arg4 harg4) K := by
  simp only [cc1__gemm2_kernel_eq_skeleton]; unfold cc1__gemm2_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

end Cert.KernelIdeal.Hand

end
-- ==== Proof.IdealGemm2Math.lean ====
/-
  The mathematics of the second product's body, at the ideal values.

  The body stores, over the whole 1024 × 1024 result buffer, the product of 1024 rows of xw (those of the point's row
  tile i: rows 1024·i … 1024·i + 1023) with the 1024 rows of the buffer of E's block, contracting the 300 features:
  entry (r, q) is  ∑_k xw[1024·i + r, k] · Ebuf[q, k]  — rounding to bf16 is the identity at the extended reals, and
  a matrix unit's product into a zero accumulator is the plain sum over the contraction index.
  At the last class tile the buffer of E's block holds rows of E only in its first 544 rows; the write-back of the
  result moves only the first 544 columns, and a column q inside the array reads row q of the buffer, a row the fetch
  filled: row 1024·j + q of E. So the part of the stored product the write-back moves is block (i, j) of
  out = xw · Eᵀ, whatever the rest of the buffer holds.
-/
import proofs.«122478_j8899172237562_2_alg».proof.Proof.IdealGemm2Kernel
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Idealize.ShloMosaic.ValueIdx
open scoped BigOperators

variable (V : (c : Dev nD) → (b : Ref sig .tc) → Buf (Elt Ideal) ((c : Thread nD τ).loc b))

/-- An entry of the stored product: row `r` of the loaded rows of xw against row `q` of the buffer of E's block. -/
theorem stored_apply (i : grid1.Coords) (X0 : Vec Ideal S4096x300 .f32) (X1 : Vec Ideal S1024x300 .f32)
    (r q : Fin 1024) (hr : 1024 * (i 1).val + r.val < 4096) :
    out1_2 i X0 X1 (ix2 r q)
      = ∑ k : Fin 300, X0 (ix2 (n0 := 4096) (n1 := 300) ⟨1024 * (i 1).val + r.val, hr⟩ k) * X1 (ix2 (n0 := 1024) (n1 := 300) q k) := by
  unfold out1_2
  rw [View.canon_unit_zero hz2]
  unfold k1_pay1
  show FloatOps.matmul _ none _ _ (constant S1024x1024 .f32 0x00000000#32) (ix2 r q) = _
  rw [Ideal.matmul_constant_zero_apply,
    ← Equiv.sum_comp (contrEquiv1 dot_S1024x300_S1024x300_S1024x1024_1_1_0_0_n_n 300 rfl rfl).symm]
  refine Finset.sum_congr rfl fun k _ => ?_
  have ck := contrEquiv1_symm_val dot_S1024x300_S1024x300_S1024x1024_1_1_0_0_n_n 300 rfl rfl k
  have hl : (dot_S1024x300_S1024x300_S1024x1024_1_1_0_0_n_n).lhsIdx (ix2 r q) ((contrEquiv1 _ 300 rfl rfl).symm k) = ix2 r k := by
    funext ax; apply Fin.ext
    match ax with
    | ⟨0, _⟩ => simp [DotDims.lhsIdx, dot_S1024x300_S1024x300_S1024x1024_1_1_0_0_n_n]; rfl
    | ⟨1, _⟩ => simp [DotDims.lhsIdx, dot_S1024x300_S1024x300_S1024x1024_1_1_0_0_n_n]; exact ck
  have hq : (dot_S1024x300_S1024x300_S1024x1024_1_1_0_0_n_n).rhsIdx (ix2 r q) ((contrEquiv1 _ 300 rfl rfl).symm k) = ix2 q k := by
    funext ax; apply Fin.ext
    match ax with
    | ⟨0, _⟩ => simp [DotDims.rhsIdx, dot_S1024x300_S1024x300_S1024x1024_1_1_0_0_n_n]; rfl
    | ⟨1, _⟩ => simp [DotDims.rhsIdx, dot_S1024x300_S1024x300_S1024x1024_1_1_0_0_n_n]; exact ck
  rw [hl, hq]
  rw [truncf_apply, truncf_apply, shapeCast_self, View.ld_unit_zero hz2]
  congr 1
  show X0 ((rxw1 i).emb (ix2 r k)) = X0 _
  congr 1
  funext ax; apply Fin.ext
  rw [Rect.emb_apply]
  match ax with
  | ⟨0, _⟩ =>
    show k1_off1 i 0 + 1 * r.val = 1024 * (i 1).val + r.val
    rw [k1_off1_eq]; show 1024 * (i 1).val + 1 * r.val = _; omega
  | ⟨1, _⟩ =>
    show k1_off1 i 1 + 1 * k.val = k.val
    rw [k1_off1_eq]; show 0 + 1 * k.val = _; omega

/-- The block indices, the sizes moved and the point's row tile, at every grid point: xw's window is its whole array;
    E's block index is the class tile, cut to 544 rows at the last; the result's block index is (row tile, class tile),
    cut to 544 columns at the last class tile. -/
theorem pt_grid : ∀ t : Fin grid1.N,
    ((grid1.coords t) 1).val = t.val % 4
    ∧ win1_0.index t 0 = 0 ∧ win1_0.index t 1 = 0
    ∧ win1_1.index t 0 = t.val / 4 ∧ win1_1.index t 1 = 0
    ∧ win1_1.xsize (grid1.coords t) 0 = (if t.val / 4 = 19 then 544 else 1024) ∧ win1_1.xsize (grid1.coords t) 1 = 300
    ∧ win1_2.index t 0 = t.val % 4 ∧ win1_2.index t 1 = t.val / 4
    ∧ win1_2.xsize (grid1.coords t) 0 = 1024 ∧ win1_2.xsize (grid1.coords t) 1 = (if t.val / 4 = 19 then 544 else 1024) := by
  decide +kernel

/-- The part of the stored product that the write-back moves is the point's block of xw · Eᵀ, whatever the buffer of
    E's block holds past the array's end. -/
theorem cut_stored_eq (c : Dev nD) (t : Fin cfg1.N) (d : S1024x300.Idx → Elt Ideal .f32) :
    win1_2.cut (grid1.coords t) (out1_2 (grid1.coords t) (iblk1 V c 0 t) (win1_1.fill (grid1.coords t) d (iblk1 V c 1 t)))
      = (win1_2.blk t).view.read (Elt Ideal) (gOut V c) := by
  obtain ⟨g1, a0, a1, b0, b1, bx0, bx1, c0, c1, cx0, cx1⟩ := pt_grid t
  have ht : t.val < 80 := t.isLt
  funext y
  have hy0 : (y 0).val < win1_2.xsize (grid1.coords t) 0 := (y 0).isLt
  have hy1 : (y 1).val < win1_2.xsize (grid1.coords t) 1 := (y 1).isLt
  have hy0' : (y 0).val < 1024 := by rw [cx0] at hy0; exact hy0
  have hy1' : (y 1).val < 1024 := by rw [cx1] at hy1; split at hy1 <;> omega
  have hyE : (y 1).val < win1_1.xsize (grid1.coords t) 0 := by rw [bx0]; rw [cx1] at hy1; exact hy1
  have hxy : win1_2.xinj (grid1.coords t) y = ix2 (n0 := 1024) (n1 := 1024) ⟨(y 0).val, hy0'⟩ ⟨(y 1).val, hy1'⟩ := by
    funext a; match a with | ⟨0, _⟩ => rfl | ⟨1, _⟩ => rfl
  show out1_2 _ _ _ (win1_2.xinj (grid1.coords t) y) = Cert.Spec.OUT (V c main_v0) (V c main_arg1) ((win1_2.blk t).view.emb y)
  rw [hxy, stored_apply _ _ _ _ _ (by rw [g1]; show 1024 * (t.val % 4) + (y 0).val < 4096; omega)]
  unfold Cert.Spec.OUT
  refine Finset.sum_congr rfl fun k _ => ?_
  congr 1
  · show V c main_v0 ((win1_0.blk t).view.emb (ix2 (n0 := 4096) (n1 := 300) ⟨1024 * ((grid1.coords t) 1).val + (y 0).val, _⟩ k)) = V c main_v0 _
    congr 1
    funext a; apply Fin.ext
    match a with
    | ⟨0, _⟩ =>
      show win1_0.index t 0 * 4096 + 1 * (1024 * ((grid1.coords t) 1).val + (y 0).val) = win1_2.index t 0 * 1024 + 1 * (y 0).val
      rw [a0, g1, c0]; omega
    | ⟨1, _⟩ =>
      show win1_0.index t 1 * 300 + 1 * k.val = k.val
      rw [a1]; omega
  · have hk : k.val < win1_1.xsize (grid1.coords t) 1 := by rw [bx1]; exact k.isLt
    let z : (win1_1.xblock (grid1.coords t)).Idx := fun a => match a with
      | ⟨0, _⟩ => ⟨(y 1).val, hyE⟩
      | ⟨1, _⟩ => ⟨k.val, hk⟩
    have hz : ix2 (n0 := 1024) (n1 := 300) ⟨(y 1).val, hy1'⟩ k = win1_1.xinj (grid1.coords t) z := by
      funext a; match a with | ⟨0, _⟩ => rfl | ⟨1, _⟩ => rfl
    rw [hz, win1_1.fill_xinj]
    show V c main_arg1 ((win1_1.blk t).view.emb z) = V c main_arg1 _
    congr 1
    funext a; apply Fin.ext
    match a with
    | ⟨0, _⟩ =>
      show win1_1.index t 0 * 1024 + 1 * (y 1).val = win1_2.index t 1 * 1024 + 1 * (y 1).val
      rw [b0, c1]
    | ⟨1, _⟩ =>
      show win1_1.index t 1 * 300 + 1 * k.val = k.val
      rw [b1]; omega

end Cert.KernelIdeal.Hand

end
-- ==== Proof.IdealGemm2Body.lean ====
/-
  The body obligation of the second product, out = xw · Eᵀ, at the ideal values and over clipped windows.

  At every grid point (class tile j, row tile i) the body finds all of xw in the first buffer, the block j of E in
  the second — on the rows inside the array; past them, at the last class tile, contents nothing names — and anything
  in the result's. It leaves the first two as found and the product of rows 1024·i … of xw with the second buffer in
  the third. What the obligation asks back: the first buffer exactly (its window is not cut); the second and third
  on the part their transfers move only. The second is unchanged. Of the third, the part moved — all 1024 columns, or
  the first 544 at the last class tile — is block (i, j) of xw · Eᵀ, which does not depend on the unnamed contents:
  those sit in rows of the second buffer that only the columns past the array's end read.
-/
import proofs.«122478_j8899172237562_2_alg».proof.Proof.IdealStages
import proofs.«122478_j8899172237562_2_alg».proof.Proof.IdealOutBlocks
import proofs.«122478_j8899172237562_2_alg».proof.Proof.IdealGemm2Before
import proofs.«122478_j8899172237562_2_alg».proof.Proof.IdealGemm2Kernel
import proofs.«122478_j8899172237562_2_alg».proof.Proof.IdealGemm2Math

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (V : (c : Dev nD) → (b : Ref sig .tc) → Buf (Elt Ideal) ((c : Thread nD τ).loc b))

/-- The library's body obligation of the second product, at every point. -/
theorem body_obligation1 (c : Dev nD) :
    BodyObligationLoose (dat1 (F := Ideal) V (oblk V c) c) (defs₀ (F := Ideal)) Variants.none () Set.univ := fun t => by
  rw [bigSep_W1, bigSep_W1]
  simp only
  rw [show (dat1 (F := Ideal) V (oblk V c) c).Φ t.succ = (dat1 (F := Ideal) V (oblk V c) c).Φ t.castSucc from rfl,
    show (dat1 (F := Ideal) V (oblk V c) c).owesAt () t.succ = (dat1 (F := Ideal) V (oblk V c) c).owesAt () t.castSucc from rfl]
  iintro ⟨HΦ, Ho, ⟨%d0, H0⟩, ⟨%d1, H1⟩, ⟨%d2, H2⟩⟩
  rw [before1_0 V _ c t d0, before1_1 V _ c t d1, before1_2 V _ c t d2]
  iapply (sound_kernel1 c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2)) (iblk1 V c 0 t)
    (win1_1.fill (grid1.coords t) d1 (iblk1 V c 1 t)) _)
  isplitl [H0]; · iexact H0
  isplitl [H1]; · iexact H1
  isplitl [H2]; · iexists d2; iexact H2
  iintro ⟨H0, H1, H2⟩
  isplitl [HΦ]; · iexact HΦ
  isplitl [Ho]; · iexact Ho
  isplitl [H0]
  · rw [after1_0]; iexact H0
  isplitl [H1]
  · iexists d1
    change _ ⊢ owns (c : Thread nD τ) (stage1_1 (cfg1.slots t 1)) fullShare
      (win1_1.fill (grid1.coords t) d1 (win1_1.cut (grid1.coords t) ((dat1 (F := Ideal) V (oblk V c) c).after 1 t)))
    rw [after1_1]; unfold eblk; rw [win1_1.cut_fill]
  · iexists out1_2 (grid1.coords t) (iblk1 V c 0 t) (win1_1.fill (grid1.coords t) d1 (iblk1 V c 1 t))
    change _ ⊢ owns (c : Thread nD τ) (stage1_2 (cfg1.slots t 2)) fullShare
      (win1_2.fill (grid1.coords t) (out1_2 (grid1.coords t) (iblk1 V c 0 t) (win1_1.fill (grid1.coords t) d1 (iblk1 V c 1 t)))
        (win1_2.cut (grid1.coords t) ((dat1 (F := Ideal) V (oblk V c) c).after 2 t)))
    rw [after1_2]; unfold oblk; rw [win1_2.cut_fill, ← cut_stored_eq V c t d1, win1_2.fill_cut]

end Cert.KernelIdeal.Hand

end
-- ==== Proof.IdealGemm1Value.lean ====
/-
  The value of the first product at the ideal values: after its four row tiles the result array is x · W.

  At row tile t the body stores, over the whole of the result's buffer, the matrix unit's product of the two
  loaded blocks into a zero accumulator. At the ideal values rounding to bf16 is the identity and that product,
  read at (r, k), is  ∑_j x0[r, j] · x1[j, k]  over the 2048 contracted positions. The block of x at row tile t
  is rows t·1024 … t·1024 + 1023 of x and the block of W is all of W, so what row tile t writes back is block t
  of the whole-array product  xw[b, k] = ∑_j x[b, j] · W[j, k].  Row b of the result lies in the block of row
  tile b / 1024, every row tile writes back, and so the four blocks cover the array.
-/
import proofs.«122478_j8899172237562_2_alg».proof.Proof.IdealStages
import proofs.«122478_j8899172237562_2_alg».proof.Proof.IdealOutBlocks
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The body's three accesses start at the zero offsets. -/
theorem zeros2 : (![0, 0] : Fin 2 → Nat) = fun _ => 0 := funext fun a => by fin_cases a <;> rfl

/-! ## The body's product at an index -/

/-- The stored value at (r, k): the sum over the 2048 contracted positions of the products of the loaded
    blocks' entries. Rounding to bf16 is the identity at the ideal values; the accumulator is zero. -/
theorem k0_pay1_apply (x0 : FVec Ideal S1024x2048 .f32) (x1 : FVec Ideal S2048x300 .f32) (r : Fin 1024) (k : Fin 300) :
    k0_pay1 (F := Ideal) x0 x1 (ix2 r k) = ∑ j : Fin 2048, x0 (ix2 r j) * x1 (ix2 j k) := by
  unfold k0_pay1
  show FloatOps.matmul dot_S1024x2048_S2048x300_S1024x300_1_0_0_1_n_n none (truncf .bf16 x0 _) (truncf .bf16 x1 _)
      (constant S1024x300 .f32 0x00000000#32) (ix2 r k) = _
  rw [Ideal.matmul_constant_zero_apply,
    ← Equiv.sum_comp (contrEquiv1 dot_S1024x2048_S2048x300_S1024x300_1_0_0_1_n_n 2048 rfl rfl).symm]
  refine Finset.sum_congr rfl fun j _ => ?_
  have cj := contrEquiv1_symm_val dot_S1024x2048_S2048x300_S1024x300_1_0_0_1_n_n 2048 rfl rfl j
  have hl : (dot_S1024x2048_S2048x300_S1024x300_1_0_0_1_n_n).lhsIdx (ix2 r k) ((contrEquiv1 _ 2048 rfl rfl).symm j) = ix2 r j := by
    funext ax; apply Fin.ext
    match ax with
    | ⟨0, _⟩ => simp [DotDims.lhsIdx, dot_S1024x2048_S2048x300_S1024x300_1_0_0_1_n_n]; rfl
    | ⟨1, _⟩ => simp [DotDims.lhsIdx, dot_S1024x2048_S2048x300_S1024x300_1_0_0_1_n_n]; exact cj
  have hr : (dot_S1024x2048_S2048x300_S1024x300_1_0_0_1_n_n).rhsIdx (ix2 r k) ((contrEquiv1 _ 2048 rfl rfl).symm j) = ix2 j k := by
    funext ax; apply Fin.ext
    match ax with
    | ⟨0, _⟩ => simp [DotDims.rhsIdx, dot_S1024x2048_S2048x300_S1024x300_1_0_0_1_n_n]; exact cj
    | ⟨1, _⟩ => simp [DotDims.rhsIdx, dot_S1024x2048_S2048x300_S1024x300_1_0_0_1_n_n]; rfl
  rw [hl, hr]
  rfl

/-! ## From the blocks to the array -/

/-- The printed index maps over the four row tiles: the block of x moves with the result's block along the
    rows and sits at column block 0; the block of W is block (0, 0); the result's block is (t, 0). -/
theorem index_facts0 : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What row tile `t` writes back is block `t` of the whole-array product. -/
theorem flushed0_2_eq (c : Dev nD) (t : Fin cfg0.N) :
    (dat0 (F := Ideal) V c).flushed 2 t = ((cfg0.win 2).blk t).view.read (Elt Ideal) (gXW V c) := by
  show (cfg0.win 2).cut (grid0.coords t) ((dat0 (F := Ideal) V c).after 2 t) = _
  rw [after0_2]
  unfold out0_2
  rw [View.canon_unit_zero zeros2]
  simp only [View.ld_unit_zero (S := S1024x2048) zeros2, View.ld_unit_zero (S := S2048x300) zeros2]
  obtain ⟨e0, e1, e2, e3, e4, e5⟩ := index_facts0 t
  funext y
  obtain ⟨r, k, rfl⟩ : ∃ (r : Fin 1024) (k : Fin 300), y = ix2 r k := ⟨y 0, y 1, eq_ix2 y⟩
  show k0_pay1 (F := Ideal) (iblk0 V c 0 t) (iblk0 V c 1 t) (ix2 r k) = gXW V c (((cfg0.win 2).blk t).view.emb (ix2 r k))
  refine (k0_pay1_apply _ _ r k).trans ?_
  unfold gXW Cert.Spec.XW
  refine Finset.sum_congr rfl fun j _ => ?_
  have h0 : ((cfg0.win 0).blk t).view.emb (ix2 r j)
      = ix2 (n0 := 4096) (n1 := 2048) (((cfg0.win 2).blk t).view.emb (ix2 r k) 0) j := by
    funext a; apply Fin.ext
    match a with
    | ⟨0, _⟩ => show win0_0.index t (0 : Fin 2) * 1024 + 1 * r.val = win0_2.index t (0 : Fin 2) * 1024 + 1 * r.val; omega
    | ⟨1, _⟩ => show win0_0.index t (1 : Fin 2) * 2048 + 1 * j.val = j.val; omega
  have h1 : ((cfg0.win 1).blk t).view.emb (ix2 j k)
      = ix2 (n0 := 2048) (n1 := 300) j (((cfg0.win 2).blk t).view.emb (ix2 r k) 1) := by
    funext a; apply Fin.ext
    match a with
    | ⟨0, _⟩ => show win0_1.index t (0 : Fin 2) * 2048 + 1 * j.val = j.val; omega
    | ⟨1, _⟩ => show win0_1.index t (1 : Fin 2) * 300 + 1 * k.val = win0_2.index t (1 : Fin 2) * 300 + 1 * k.val; omega
  have f0 : iblk0 V c 0 t (ix2 r j)
      = V c main_arg0 (ix2 (n0 := 4096) (n1 := 2048) (((cfg0.win 2).blk t).view.emb (ix2 r k) 0) j) := by
    show V c main_arg0 (((cfg0.win 0).blk t).view.emb (ix2 r j)) = _
    rw [h0]
  have f1 : iblk0 V c 1 t (ix2 j k)
      = V c main_arg2 (ix2 (n0 := 2048) (n1 := 300) j (((cfg0.win 2).blk t).view.emb (ix2 r k) 1)) := by
    show V c main_arg2 (((cfg0.win 1).blk t).view.emb (ix2 j k)) = _
    rw [h1]
  exact congrArg₂ (fun a b : EReal => a * b) f0 f1

/-- An index of the result array is in row tile `t`'s block iff each coordinate is in the block's range. -/
theorem mem_blk0_2 (t : Fin cfg0.N) (i : S4096x300.Idx) :
    i ∈ ((cfg0.win 2).blk t).view.set ↔ ∀ a : Fin 2, win0_2.index t a * S1024x300.size a ≤ (i a).val ∧ (i a).val < win0_2.index t a * S1024x300.size a + S1024x300.size a := by
  show i ∈ ((View.whole main_v0).slice (win0_2.rect t)).set ↔ _
  rw [View.set_slice_whole, Rect.mem_set_unit]
  exact Iff.rfl

/-- Row b of the result array lies in the block of row tile b / 1024, which writes back. -/
theorem cover0_2_arr (i : S4096x300.Idx) :
    ∃ t : Fin cfg0.N, (cfg0.win 2).flush t = true ∧ i ∈ ((cfg0.win 2).blk t).view.set := by
  have hi0 : (i 0).val < 4096 := idx2_lt0 i
  have hi1 : (i 1).val < 300 := idx2_lt1 i
  refine ⟨⟨(i 0).val / 1024, by rw [show cfg0.N = 4 from N_0]; omega⟩, flush0_2 _, ?_⟩
  obtain ⟨e0, e1, e2, e3, e4, e5⟩ := index_facts0 ⟨(i 0).val / 1024, by rw [show cfg0.N = 4 from N_0]; omega⟩
  rw [mem_blk0_2]
  intro a
  match a with
  | ⟨0, _⟩ =>
    show win0_2.index ⟨(i 0).val / 1024, _⟩ (0 : Fin 2) * 1024 ≤ (i 0).val ∧ (i 0).val < win0_2.index ⟨(i 0).val / 1024, _⟩ (0 : Fin 2) * 1024 + 1024
    rw [e4]; show (i 0).val / 1024 * 1024 ≤ (i 0).val ∧ (i 0).val < (i 0).val / 1024 * 1024 + 1024; omega
  | ⟨1, _⟩ =>
    show win0_2.index ⟨(i 0).val / 1024, _⟩ (1 : Fin 2) * 300 ≤ (i 1).val ∧ (i 1).val < win0_2.index ⟨(i 0).val / 1024, _⟩ (1 : Fin 2) * 300 + 300
    rw [e5]; omega

/-- THE RESULT ARRAY after the four row tiles: the whole-array product x · W. -/
theorem final0 (c : Dev nD) : (dat0 (F := Ideal) V c).arrAt 2 cfg0.N = gXW V c :=
  (dat0 (F := Ideal) V c).arrAt_eq_of_cover 2 (gXW V c) (fun t _ => flushed0_2_eq V c t) (fun i => cover0_2_arr i)

end Cert.KernelIdeal.Hand

end
-- ==== Proof.IdealGemm2Value.lean ====
/-
  The result array of the second product after its last write-back, at the ideal values.

  The second product runs over 20 × 4 grid points (class tile outermost, row tile innermost); point t writes the
  block (row tile t mod 4, class tile t div 4) of out : 4096 × 20000 back from its staging buffer, 1024 × 1024 entries
  but for the last class tile, whose write-back moves the first 544 columns only (19 · 1024 + 544 = 20000).
  Every point's write-back writes its block of ONE whole-array function, out = xw · Eᵀ; and every entry (b, cls) of
  the array lies in the block of the point 4 · (cls div 1024) + b div 1024. So after the last point the array holds
  xw · Eᵀ.
-/
import proofs.«122478_j8899172237562_2_alg».proof.Proof.IdealStages
import proofs.«122478_j8899172237562_2_alg».proof.Proof.IdealOutBlocks
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable (V : (c : Dev nD) → (b : Ref sig .tc) → Buf (Elt Ideal) ((c : Thread nD τ).loc b))

/-- The result window's block index and the sizes its transfers move, at every grid point: the row tile is the
    point's inner coordinate, the class tile the outer; only the last class tile is cut, to 544 columns. -/
theorem out_grid : ∀ t : Fin grid1.N, win1_2.index t 0 = t.val % 4 ∧ win1_2.index t 1 = t.val / 4
    ∧ win1_2.xsize (grid1.coords t) 0 = 1024 ∧ win1_2.xsize (grid1.coords t) 1 = (if t.val / 4 = 19 then 544 else 1024) := by
  decide +kernel

/-- An entry of the result array is in point `t`'s block iff on each axis its coordinate is among the block's
    coordinates inside the array: from block index × 1024, as many as the transfer moves. -/
theorem mem_blk_out (t : Fin cfg1.N) (i : S4096x20000.Idx) :
    i ∈ (win1_2.blk t).view.set ↔ ∀ a, win1_2.index t a * win1_2.size a ≤ (i a : Nat)
      ∧ (i a : Nat) < win1_2.index t a * win1_2.size a + win1_2.xsize (grid1.coords t) a := by
  show i ∈ ((View.whole main_v1).slice (win1_2.rect t)).set ↔ _
  rw [View.set_slice_whole, Rect.mem_set_unit]

/-- After the last write-back the result array holds xw · Eᵀ: each point writes back its block of that one function
    (what the proof data states of the staging buffer, cut to the part moved), and the blocks cover the array. -/
theorem final1 (c : Dev nD) : (dat1 (F := Ideal) V (oblk V c) c).arrAt 2 cfg1.N = gOut V c := by
  refine (dat1 (F := Ideal) V (oblk V c) c).arrAt_eq_of_cover 2 (gOut V c) (fun t _ => ?_) (fun i => ?_)
  · show win1_2.cut (grid1.coords t) ((dat1 (F := Ideal) V (oblk V c) c).after 2 t) = _
    rw [after1_2]; exact win1_2.cut_fill _ _ _
  · -- entry (b, cls): row tile b div 1024, class tile cls div 1024
    have hb : (i 0 : Nat) < 4096 := (i 0).isLt
    have hc : (i 1 : Nat) < 20000 := (i 1).isLt
    refine ⟨⟨(i 1 : Nat) / 1024 * 4 + (i 0 : Nat) / 1024, by show _ < 80; omega⟩, flush1_2 _, ?_⟩
    rw [mem_blk_out]
    obtain ⟨h0, h1, h2, h3⟩ := out_grid ⟨(i 1 : Nat) / 1024 * 4 + (i 0 : Nat) / 1024, by show _ < 80; omega⟩
    intro a
    match a with
    | ⟨0, _⟩ =>
      show win1_2.index _ 0 * 1024 ≤ (i 0 : Nat) ∧ (i 0 : Nat) < win1_2.index _ 0 * 1024 + win1_2.xsize _ 0
      rw [h0, h2]; dsimp only; omega
    | ⟨1, _⟩ =>
      show win1_2.index _ 1 * 1024 ≤ (i 1 : Nat) ∧ (i 1 : Nat) < win1_2.index _ 1 * 1024 + win1_2.xsize _ 1
      rw [h1, h3]; dsimp only; split <;> omega

end Cert.KernelIdeal.Hand

end
-- ==== Proof.RefValue.lean ====
/-
  The reference's result is the same two sums.

  The reference computes  xw = dot_general(x, W),  Et = transpose(E),  out = dot_general(xw, Et)  on the host.
  Read at an index at the ideal values each dot_general is the plain sum over its contraction index, and the
  transpose only exchanges the two coordinates, so the result is  out[b, c] = ∑_k (∑_j x[b, j] · W[j, k]) · E[c, k]:
  the second product of the specification applied to the first.
-/
import proofs.«122478_j8899172237562_2_alg».proof.Proof.Gen.ReferenceIdeal.Run
import proofs.«122478_j8899172237562_2_alg».proof.Proof.Gen.ReferenceIdeal.Read
import proofs.«122478_j8899172237562_2_alg».proof.Proof.Spec
import Idealize.ShloMosaic.PureOps.Ideal.Laws
import Idealize.ShloMosaic.Lib.ValueIdx
import Idealize.ShloMosaic.Lib.Pipeline.Value

noncomputable section

open scoped BigOperators

namespace Cert.ReferenceIdeal.RefValue

open Cert.ReferenceIdeal Cert.ReferenceIdeal.Read Idealize.ShloMosaic Idealize.ShloMosaic.ValueIdx

/-- The reference's last stage, as a function of its three arguments, is the specification's second product of the
    first: index by index, the outer sum over the 300 features of (the inner sum over the 2048 inputs) times the
    class embedding's entry, the transpose having exchanged E's coordinates. -/
theorem result_eq (x0 : (⟨S4096x2048, .f32⟩ : BufTy).Contents (Elt Ideal)) (x1 : (⟨S20000x300, .f32⟩ : BufTy).Contents (Elt Ideal))
    (x2 : (⟨S2048x300, .f32⟩ : BufTy).Contents (Elt Ideal)) :
    val_main_v2 (F := Ideal) x0 x1 x2 = Cert.Spec.OUT (Cert.Spec.XW x0 x2) x1 := by
  funext i
  rw [val_main_v2_apply]
  unfold Cert.Spec.OUT
  refine Finset.sum_congr rfl fun k _ => ?_
  rw [val_main_v0_apply, val_main_v1_apply]
  have e1 : idx_main_v1 (ridx_main_v2 i k) = ix2 (n0 := 20000) (n1 := 300) (i 1) k :=
    funext fun a => Fin.ext (by match a with | ⟨0, _⟩ => rfl | ⟨1, _⟩ => rfl)
  rw [e1]
  unfold Cert.Spec.XW
  refine congrArg (· * x1 (ix2 (n0 := 20000) (n1 := 300) (i 1) k)) ?_
  refine Finset.sum_congr rfl fun j _ => ?_
  have e2 : lidx_main_v0 (lidx_main_v2 i k) j
      = ix2 (n0 := 4096) (n1 := 2048) ((ix2 (n0 := 4096) (n1 := 300) (i 0) k) 0) j :=
    funext fun a => Fin.ext (by match a with | ⟨0, _⟩ => rfl | ⟨1, _⟩ => rfl)
  have e3 : ridx_main_v0 (lidx_main_v2 i k) j
      = ix2 (n0 := 2048) (n1 := 300) j ((ix2 (n0 := 4096) (n1 := 300) (i 0) k) 1) :=
    funext fun a => Fin.ext (by match a with | ⟨0, _⟩ => rfl | ⟨1, _⟩ => rfl)
  rw [e2, e3]

end Cert.ReferenceIdeal.RefValue

end
-- ==== Proof.WordStages.lean ====
/-
  The staging-buffer contents of the two matrix products, point by point.

  The program is two pipelined products: first  xw = x · W  over four row tiles of 1024 rows
  (x : 4096 × 2048, W : 2048 × 300), then  out = xw · Eᵀ  over a 20 × 4 grid of (class tile, row tile)
  points (E : 20000 × 300), the class tile outermost. 20 · 1024 = 20480 exceeds 20000, so the last class
  tile's block of E and the last column block of the result overhang their arrays by 480 rows / columns:
  the fetch fills only the first 544 rows of the buffer and the write-back moves only the first 544 columns.

  This module names, for each product and each grid point, what every window's staging buffer holds after
  the body (the proof data of the pipeline library). For the first product these are the blocks of x and W
  and the product of the two blocks. For the second, the whole of xw, the block of E filled out past the
  array's end, and a parameter `o` for the result's buffer, chosen by the importing module (the exact
  product on the columns inside the array at the extended reals; left unnamed where only the frame is wanted).
-/
import proofs.«122478_j8899172237562_2_alg».proof.Proof.Gen.Kernel.Launch
import proofs.«122478_j8899172237562_2_alg».proof.Proof.Gen.Kernel.Skeleton
import proofs.«122478_j8899172237562_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

-- the TensorCore's buffer contents when a product's region is entered
variable (V : (c : Dev nD) → (b : Ref sig .tc) → Buf (Elt F) ((c : Thread nD τ).loc b))

/-! ## The first product, xw = x · W -/

/-- Window `w`'s block at row tile `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's three accesses: each the whole of its staging buffer. -/
abbrev rx0 : Rect S1024x2048 := Rect.unit (s := S1024x2048) ![0, 0] S1024x2048.size inb_S1024x2048_S1024x2048_0_0
abbrev rw0 : Rect S2048x300 := Rect.unit (s := S2048x300) ![0, 0] S2048x300.size inb_S2048x300_S2048x300_0_0
abbrev ro0 : Rect S1024x300 := Rect.unit (s := S1024x300) ![0, 0] S1024x300.size inb_S1024x300_S1024x300_0_0

/-- The result's staging buffer after the body: its one store, the product of the two loaded blocks. -/
def out0_2 (x0 : Vec F S1024x2048 .f32) (x1 : Vec F S2048x300 .f32) : Vec F S1024x300 .f32 :=
  View.canon [⟨ro0, k0_pay1 (View.ld x0 rx0) (View.ld x1 rw0)⟩]

/-- The proof data of the first product on core `c`: the arrays as the region finds them; after the body at row
    tile `t` the buffers of x and W hold their blocks and the result's the product of the two; the invariant is the
    untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## The second product, out = xw · Eᵀ -/

/-- Window `w`'s block at grid point `t`, its part inside the array, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of E at point `t` filled out to the whole buffer: past the array's end the zero word, which nothing reads. -/
def eblk (c : Dev nD) (t : Fin cfg1.N) : S1024x300.Idx → Elt F .f32 :=
  win1_1.fill (grid1.coords t) (fun _ => Scalar.ofBits .f32 0#32) (iblk1 V c 1 t)

/-- The proof data of the second product on core `c`: the arrays as the region finds them; after the body at point
    `t` the buffer of xw holds all of xw, the buffer of E its block (filled out), the result's `o t`. -/
def dat1 (o : Fin cfg1.N → S1024x1024.Idx → Elt F .f32) (c : Dev nD) : Dat τ (Elt F) Unit ℕ (UR sig nD τ) ℕ cfg1 c where
  A w := V c (Pipeline.arrRef spec1 w)
  after w t := match w with
    | ⟨0, _⟩ => iblk1 V c 0 t
    | ⟨1, _⟩ => eblk V c t
    | ⟨2, _⟩ => o t
  Φ _ := Pipeline.ΦA spec1 c
  q _ := fullShare
  owed _ := 0

theorem A_eq1 (o : Fin cfg1.N → S1024x1024.Idx → Elt F .f32) (c : Dev nD) (w : Fin cfg1.W) : (dat1 V o c).A w = V c (Pipeline.arrRef spec1 w) := by
  dsimp only [dat1]
theorem after1_0 (o : Fin cfg1.N → S1024x1024.Idx → Elt F .f32) (c : Dev nD) (t : Fin cfg1.N) : (dat1 V o c).after 0 t = iblk1 V c 0 t := by dsimp only [dat1]
theorem after1_1 (o : Fin cfg1.N → S1024x1024.Idx → Elt F .f32) (c : Dev nD) (t : Fin cfg1.N) : (dat1 V o c).after 1 t = eblk V c t := by dsimp only [dat1]
theorem after1_2 (o : Fin cfg1.N → S1024x1024.Idx → Elt F .f32) (c : Dev nD) (t : Fin cfg1.N) : (dat1 V o c).after 2 t = o t := by dsimp only [dat1]

end Cert.Kernel.Hand

end
-- ==== Proof.WordGemm1Body.lean ====
/-
  The body obligation of the first product, xw = x · W.

  At each of the four row tiles the body loads the whole buffer of x and the whole buffer of W, loads (and
  never uses) the whole of the result's buffer, and stores the product of the two loaded blocks over the whole
  of the result's buffer. Both input windows hold their blocks wherever the body is called: x is fetched at
  every row tile; W at the first only, and its block index never moves afterwards. The one store covers the
  result's buffer, so after the body that buffer holds the product of the two blocks, whatever it held before.
-/
import proofs.«122478_j8899172237562_2_alg».proof.Proof.WordStages

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the two input windows' buffers -/

/-- The buffer of x holds the block of x at every row tile, for any proof data whose array is the region-entry
    contents and whose body leaves the block in place: the window is fetched at every point, uncut, never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The buffer of W holds the block of W (all of W) at every row tile, fetched there or not: after the first
    row tile the block index has not moved, so what the first fetch put there is still this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The one store covers the result's buffer -/

theorem cover0_2 (p0 : Vec F S1024x300 .f32) (y : S1024x300.Idx) :
    ∃ pc ∈ ([⟨ro0, p0⟩] : List (View.Piece (Elt F) S1024x300 .f32)), y ∈ pc.1.set :=
  View.cover_of_tiled [⟨ro0, p0⟩] S1024x300.size (by rfl) y

/-! ## The body's triple -/

set_option maxHeartbeats 1000000 in
/-- The body on whole staging memrefs, the two inputs' at contents `x0`, `x1` and the result's at anything, runs
    to the continuation holding the inputs' as they were and the result's at the product of the two
    (`out0_2 x0 x1`): its load of the result's buffer reads whatever is there and is never used. -/
theorem sound_kernel0 (c : Dev nD) (E : Set ℕ) (i : grid0.Coords)
    (arg1 : Memref sig .tc .vmem S1024x2048 .f32) (harg1 : arg1.IsWhole) (arg2 : Memref sig .tc .vmem S2048x300 .f32) (harg2 : arg2.IsWhole)
    (arg3 : Memref sig .tc .vmem S1024x300 .f32) (harg3 : arg3.IsWhole)
    (x0 : Vec F S1024x2048 .f32) (x1 : Vec F S2048x300 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__gemm1_kernel i arg1 harg1 arg2 harg2 arg3 harg3) K := by
  simp only [cc0__gemm1_kernel_eq_skeleton]; unfold cc0__gemm1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic row tile -/

/-- What the body is called with at row tile `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any row tile: the inputs' memrefs hold their blocks, so the body's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every row tile. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.WordGemm2Body.lean ====
/-
  The second product's body at one grid point, at word level, with the result's window forgotten.

  At point t = (j, i) the body reads rows [1024·i, 1024·i + 1024) of the buffer holding all of xw, reads the
  whole buffer of E's block j, and stores their product into the result's buffer. Nothing is claimed here of
  that product: the result's buffer is handed over at some contents and handed back at some contents. What is
  claimed: the buffer of xw holds all of xw at every point and is left as found; the buffer of E holds block j
  on the rows inside the array — fetched at this point or at an earlier point of the same class tile — and is
  left as found, whatever its rows past the array's end hold.
-/
import proofs.«122478_j8899172237562_2_alg».proof.Proof.WordStages

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The windows whose contents are not named: the result's (window 2) only. -/
abbrev fgtOut : Fin cfg1.W → Bool := fun | 0 => false | 1 => false | 2 => true | ⟨_ + 3, h⟩ => absurd h (Nat.not_lt.2 (Nat.le_add_left _ _))

/-- The buffer of xw holds all of xw at every point: fetched once, never cut, left in place by the body. -/
theorem before1_0 (o : Fin cfg1.N → S1024x1024.Idx → Elt F .f32) (c : Dev nD) (t : Fin cfg1.N) (d) :
    (dat1 V o c).before 0 t d = iblk1 V c 0 t :=
  ((dat1 V o c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- How a block of E is cut at the array's end depends on its block index only. -/
theorem clip1_1 : ∀ t t' : Fin cfg1.N, (cfg1.win 1).index t = (cfg1.win 1).index t' →
    (cfg1.win 1).clip (cfg1.grid.coords t) = (cfg1.win 1).clip (cfg1.grid.coords t') := fun t t' h => by
  funext a
  show Pipeline.Clip.of (cc1_transform_1 (grid1.coords t) a) _ _ = Pipeline.Clip.of (cc1_transform_1 (grid1.coords t') a) _ _
  rw [show cc1_transform_1 (grid1.coords t) = cc1_transform_1 (grid1.coords t') from h]

/-- The buffer of E holds, at every point, its block on the rows inside the array and anything on the rows past
    the array's end: the body leaves that part in place, and a point that does not fetch has the block index of the
    point before. -/
theorem before1_1 (o : Fin cfg1.N → S1024x1024.Idx → Elt F .f32) (c : Dev nD) (t : Fin cfg1.N) (d) :
    (dat1 V o c).before 1 t d = win1_1.fill (grid1.coords t) d (iblk1 V c 1 t) :=
  ((dat1 V o c).before_in_eq_fetched 1 rfl (fun _ => rfl) clip1_1
      (fun t => by rw [after1_1]; unfold eblk; rw [Window.cut_fill]; unfold Dat.blockOf iblk1; rw [A_eq1]) t d).trans
    (by unfold Dat.fetched Dat.blockOf iblk1; rw [A_eq1])

set_option maxHeartbeats 1000000 in
/-- The body on whole buffers: from the two operands' buffers at `x0`, `x1` and the result's at anything, it
    runs — the load of 1024 rows of xw at the computed row offset, the whole load of E's buffer, the unused whole load
    of the result's buffer, the whole store — to the operands' buffers unchanged and the result's at some contents. -/
theorem sound_kernel1 (c : Dev nD) (E : Set ℕ) (i : grid1.Coords)
    (arg2 : Memref sig .tc .vmem S4096x300 .f32) (harg2 : arg2.IsWhole)
    (arg3 : Memref sig .tc .vmem S1024x300 .f32) (harg3 : arg3.IsWhole)
    (arg4 : Memref sig .tc .vmem S1024x1024 .f32) (harg4 : arg4.IsWhole)
    (x0 : Vec F S4096x300 .f32) (x1 : Vec F S1024x300 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ (∃ X, owns (c : Thread nD τ) arg4 fullShare X)) -∗ K ⟨⟩))
      ⊢ wp frame (wpE (defs₀ (F := F)) Variants.none c none) E (cc1__gemm2_kernel i arg2 harg2 arg3 harg3 arg4 harg4) K := by
  simp only [cc1__gemm2_kernel_eq_skeleton]; unfold cc1__gemm2_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; iexists _; isplitr
  swap; · iexact H2
  ipureintro
  rfl

/-- What the body is called with at point `t`, window by window: the result's buffer at any contents, -/
def bodyPre1 (o : Fin cfg1.N → S1024x1024.Idx → Elt F .f32) (c : Dev nD) (t : Fin cfg1.N) : sProp 𝕄 :=
  iprop((dat1 V o c).Φ t.castSucc ∗ (dat1 V o c).owesAt () t.castSucc
    ∗ (∃ d, owns (c : Thread nD τ) (st1_0 t) fullShare ((dat1 V o c).before 0 t d))
    ∗ (∃ d, owns (c : Thread nD τ) (st1_1 t) fullShare ((dat1 V o c).before 1 t d))
    ∗ (∃ X, owns (c : Thread nD τ) (st1_2 t) fullShare X))

/-- and what it returns: the buffer of xw as found, the buffer of E stated on the rows inside the array, the
    result's at any contents. -/
def bodyPost1 (o : Fin cfg1.N → S1024x1024.Idx → Elt F .f32) (c : Dev nD) (t : Fin cfg1.N) : sProp 𝕄 :=
  iprop((dat1 V o c).Φ t.succ ∗ (dat1 V o c).owesAt () t.succ
    ∗ owns (c : Thread nD τ) (st1_0 t) fullShare ((dat1 V o c).after 0 t)
    ∗ (∃ d, owns (c : Thread nD τ) (st1_1 t) fullShare
        ((cfg1.win 1).fill (cfg1.grid.coords t) d ((cfg1.win 1).cut (cfg1.grid.coords t) ((dat1 V o c).after 1 t))))
    ∗ (∃ X, owns (c : Thread nD τ) (st1_2 t) fullShare X))

/-- The body at any point: the operands' buffers hold all of xw and the block of E filled out past the array's
    end, so the body's triple applies; the invariant and the core's dues pass through unread. -/
theorem sound_body1 (o : Fin cfg1.N → S1024x1024.Idx → Elt F .f32) (c : Dev nD) (t : Fin cfg1.N) :
    bodyPre1 V o c t ⊢ wp frame (wpE (defs₀ (F := F)) Variants.none c none) Set.univ (bodyAt1 t) (fun _ => bodyPost1 V o c t) := by
  unfold bodyPre1 bodyPost1 bodyAt1
  simp only [before1_0, before1_1]
  rw [show (dat1 V o c).Φ t.succ = (dat1 V o c).Φ t.castSucc from rfl,
    show (dat1 V o c).owesAt () t.succ = (dat1 V o c).owesAt () t.castSucc from rfl,
    after1_0, after1_1]
  iintro ⟨HΦ, Ho, ⟨%d0, H0⟩, ⟨%d1, H1⟩, ⟨%X2, H2⟩⟩
  iapply (sound_kernel1 c Set.univ _ _ _ _ _ _ _ (iblk1 V c 0 t) (win1_1.fill (grid1.coords t) d1 (iblk1 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    rw [show (cfg1.win 1).cut (cfg1.grid.coords t) (eblk V c t) = iblk1 V c 1 t from Window.cut_fill _ _ _ _]
    iexact H1
  iexact H2

/-- The body obligation of the second product with the result's window forgotten. -/
theorem body_obligation1_fgt (o : Fin cfg1.N → S1024x1024.Idx → Elt F .f32) (c : Dev nD) :
    BodyObligationLoose (dat1 (F := F) V o c) (defs₀ (F := F)) Variants.none () Set.univ fgtOut := fun t => by
  rw [bigSep_W1, bigSep_W1]
  exact sound_body1 V o c t

end Cert.Kernel.Hand

end
-- ==== Proof.WordRun.lean ====
/-
  The run of the program at word level: the two products one after the other, from the launch memory to the
  return, and that the three arguments end as launched.

  @main is the first product's region followed by the second's, with no host operation between. At launch the
  TensorCore's unscoped buffers hold the memory `m`; after the first product the same with xw's buffer at what
  the four row tiles wrote back. Of the second product's result nothing is named: an entry of the word-level
  product may depend on every word of the right operand's buffer, the rows past E's end included, which no
  contents at launch determine. So the second product's proof data relate, rather than name, what its body leaves
  in the result's buffer (any contents at all), and its region is left with its three arrays at SOME contents
  their write-backs may leave. That is enough for the arguments: an input array of a region is never written, so
  xw's buffer and E end the second region as they began it; x and W bypass the second region; E bypasses the
  first, and x and W are the first's inputs.
-/
import proofs.«122478_j8899172237562_2_alg».proof.Proof.WordStages
import proofs.«122478_j8899172237562_2_alg».proof.Proof.WordGemm2Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries -/

/-- Core `c`'s buffers at launch: what the first product's region is entered with. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the first product: its arrays at what its write-backs leave (x and W as entered, xw's buffer overwritten
    row tile by row tile), every other buffer as entered. The second product's region is entered with these. -/
def W2 (c : Dev nD) : Valuation τ sig (Elt F) :=
  Pipeline.withArrays spec0 c (W0 m ρ c) fun w => (dat0 (V0 m ρ) c).arrAt w cfg0.N
theorem W2_arr (c : Dev nD) (w : Fin cfg0.W) :
    W2 m ρ c (Proc.devRef .tc (Pipeline.arrRef spec0 w)) = (dat0 (V0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V0 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V0 m ρ c b :=
  fun b hb => W2_of_ne m ρ c b fun w e => hb (Finset.mem_image.mpr ⟨w, Finset.mem_univ _, e⟩)

/-- x, E and W, as the second product finds them, are as launched: x and W are inputs of the first product, which
    never writes an input; E is no array of the first product. -/
theorem V2_main_arg0 (c : Dev nD) : V2 m ρ c main_arg0 = m ((c : Thread nD τ).loc main_arg0) :=
  (W2_arr m ρ c 0).trans (((dat0 (V0 m ρ) c).arrAt_in 0 rfl _).trans (A_eq0 (V0 m ρ) c 0))
theorem V2_main_arg1 (c : Dev nD) : V2 m ρ c main_arg1 = m ((c : Thread nD τ).loc main_arg1) :=
  W2_of_ne m ρ c main_arg1 (by decide)
theorem V2_main_arg2 (c : Dev nD) : V2 m ρ c main_arg2 = m ((c : Thread nD τ).loc main_arg2) :=
  (W2_arr m ρ c 1).trans (((dat0 (V0 m ρ) c).arrAt_in 1 rfl _).trans (A_eq0 (V0 m ρ) c 1))

/-! ## The proof data family and the thread state -/

/-- A filler for the result's staging contents, which nothing reads: the second product's result window is forgotten. -/
abbrev o₀ : Fin cfg1.N → S1024x1024.Idx → Elt F .f32 := fun _ _ => Scalar.ofBits .f32 0#32

abbrev adm : (p : Fin 2) → (pcfgs (F := F) p).Adm := fun p => (cfgs p).toPCfg_adm

/-- Both products' proof data in the form that names the staging contents, each at the contents its region is
    entered with (the second's result window at the filler), -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) o₀ c

/-- and in the form that relates them: the first product's read as it stands, the second's with its result window
    forgotten — of what the body leaves there nothing is said. -/
def rdats : (p : Fin 2) → (c : Dev nD) → RDat τ (Elt F) Unit ℕ (UR sig nD τ) ℕ (Pipeline.pin (pcfgs (F := F)) adm p) c
  | ⟨0, _⟩ => fun c => (dat0 (V0 m ρ) c).toR
  | ⟨1, _⟩ => fun c => (dat1 (V2 m ρ) o₀ c).toRForget fgtOut

abbrev 𝒱₀ : Variants := Variants.none
abbrev L : GSem nD τ sig → Finset Unit := fun _ => ∅
abbrev lv : GSem nD τ sig → Unit → ℕ := fun _ _ => 0
/-- What rides beside the buffers through both regions: the generator register at some state, and nothing owed. -/
abbrev R (c : Dev nD) : sProp 𝕄 := iprop((∃ r, prngReg c r) ∗ ∃ W, owes (c : Thread nD τ) (0 : CellTallies nD τ sig Unit) W)

/-- The last thread state: the second product's arrays at some contents their write-backs may leave, the unscoped
    buffers that are no array of it (x and W) as it was entered with, the generator register at some state. -/
abbrev Tₙ (c : Dev nD) : sProp 𝕄 :=
  iprop((rdats m ρ 1 c).arraysAt cfg1.N
    ∗ Pipeline.unscopedRest (Ix := Unit) (Name := ℕ) (U := UR sig nD τ) (Lvl := ℕ) spec1 c (V2 m ρ c)
    ∗ ∃ r, prngReg c r)

section Run

variable (hb0 : ∀ (V : (c : Dev nD) → (b : Ref sig .tc) → Buf (Elt F) ((c : Thread nD τ).loc b)) (c : Dev nD),
  BodyObligation (dat0 (F := F) V c) (defs₀ (F := F)) Variants.none () Set.univ)
include hb0

/-! ## The two regions as segments -/

set_option backward.isDefEq.respectTransparency.types false in
/-- The first product's region: entered from every unscoped buffer at the launch contents, left at `W2` (its
    relational data are exact data, so its arrays end at the contents those name). -/
def reg0 : Pipeline.RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 (V0 m ρ) c).loose.toR
  hwaits := Pipeline.RDat.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.RDat.arrays_of_unscopedBufs (p := 0) (pcfgs (F := F)) adm (rdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V2 m ρ c) ((pdats m ρ 0 c).arrAt · cfg0.N) (hF0 m ρ c) (hrest0 m ρ c)
    rw [Pipeline.unscopedBufs_held] at hjoin
    have harr : (rdats m ρ 0 c).arraysAt (Pipeline.pin (pcfgs (F := F)) adm 0).N
        ⊢ ((pdats m ρ 0 c).arrays ((pdats m ρ 0 c).arrAt · cfg0.N) : sProp 𝕄) :=
      Dat.toR_arraysAt_post (dat0 (V0 m ρ) c) cfg0.N
    iintro ⟨Ha, HO, HY, Hrest⟩
    ihave Ha := harr $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- The second product's region: entered from every unscoped buffer at `W2`, left with its arrays at some contents
    their write-backs may leave and the other unscoped buffers untouched. -/
def reg1 : Pipeline.RDat.RegionSeg (pcfgs (F := F)) adm (rdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1_fgt (V2 m ρ) o₀ c).toRForget
  hwaits := Pipeline.RDat.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.RDat.arrays_of_unscopedBufs (p := 1) (pcfgs (F := F)) adm (rdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha]; · iexact Ha
      isplitl [Hrest]; · iexact Hrest
      iexact HY
    unfold Pipeline.RDat.owesAt Pipeline.owesWithin
    icases HO with ⟨%W, -, HO⟩; iexists W; iexact HO

/-! ## @main as the two segments, and the launch -/

/-- @main as its two regions in order. -/
abbrev segs : List (Pipeline.RDat.Seg (pcfgs (F := F)) adm (rdats m ρ) () defs₀ 𝒱₀ L lv) :=
  [ .region (reg0 m ρ hb0), .region (reg1 m ρ) ]

/-- @main IS the run of the two segments, by unfolding. -/
theorem main_run (c : Dev nD) : main (F := F) c = Pipeline.RDat.Seg.run (segs m ρ hb0) := by
  show main (F := F) c = Pipeline.RDat.Seg.run [ .region (reg0 m ρ hb0), .region (reg1 m ρ) ]
  simp only [Pipeline.RDat.Seg.run]
  rfl

set_option backward.isDefEq.respectTransparency.types false in
/-- From any memory with zero counters every weakly fair execution of @main terminates, nothing faulting, and in
    every final memory x, E and W hold what they held at launch: E is read off the second region's input array
    (never written), x and W off the buffers that bypass it, and each is as launched by the first region's frame. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.RDat.θ_run_regions_kit (pcfgs (F := F)) adm (rdats m ρ) () cellOf_inj emb₁ defs₀ 𝒱₀ L lv m ρ main (segs m ρ hb0)
    (fun c Q => by rw [main_run m ρ hb0 c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      unfold Tₙ; rw [unscopedRest1_eq]
      iintro ⟨⟨Ha, ⟨H0, H2⟩, -⟩, HSI⟩
      ihave H := (Pipeline.RDat.arrays_read (pcfgs (F := F)) adm (rdats m ρ) (p := 1) launch1.arr_whole c cfg1.N s') $$ [Ha HSI]
      · isplitl [Ha] <;> iassumption
      icases H with ⟨%hA, HSI⟩
      icombine HSI H0 gives %h0
      icombine HSI H2 gives %h2
      imodintro
      isplitr
      · ipureintro
        have h1 := hA 1
        rw [Pipeline.RDat.ArrAt_in (rdats m ρ 1 c) 1 rfl] at h1
        exact ⟨(funext fun i => h0 i (Finset.mem_univ i)).trans (V2_main_arg0 m ρ c),
          h1.trans (V2_main_arg1 m ρ c),
          (funext fun i => h2 i (Finset.mem_univ i)).trans (V2_main_arg2 m ρ c)⟩
      · iexact HSI)
    (hQ := fun s h c => h c)

end Run

end Cert.Kernel.Hand

end
-- ==== Proof.lean ====
/-
  out = (x · W) · Eᵀ, computed by two pipelined matrix products, against the same two products on the host.

  The kernel first forms xw = x · W over four tiles of 1024 rows, then out = xw · Eᵀ over a 20 × 4 grid of
  (class tile, row tile) points, holding all of xw resident and taking 1024 rows of it by a computed offset. The
  twentieth class tile overhangs the 20000 classes by 480: its block of E is only partly filled by the fetch and
  only the 544 result columns inside the array are written back, so whatever the body computes from the unfilled
  rows never reaches the result.

  * The word-level program runs to the end and leaves x, E and W as launched. Its second product's result buffer
    is left unnamed (a word-level matrix-unit product of a block is a function of the whole block, the unfilled
    rows included); the frame asks nothing of it.
  * At the ideal values rounding to bf16 is the identity and a product into a zero accumulator is the plain sum
    over the contraction index, so an entry of a block product reads only its own row of each operand: on the
    columns inside the array the second product's blocks are blocks of one whole-array function, and the program
    ends with out[b, c] = ∑_k (∑_j x[b, j] · W[j, k]) · E[c, k] and its arguments as launched.
  * The reference's two host products and its transpose of E read at an index are the same two sums.
  Both sides group and order their sums alike, so no law of the extended reals is used and the inputs' finiteness
  is never opened. The idealization rewrote no operation, so what it preserves is trivially true.
-/
import proofs.«122478_j8899172237562_2_alg».proof.Defs
import proofs.«122478_j8899172237562_2_alg».proof.Proof.Gen.Kernel
import proofs.«122478_j8899172237562_2_alg».proof.Proof.Gen.KernelIdeal
import proofs.«122478_j8899172237562_2_alg».proof.Proof.Gen.ReferenceIdeal
import proofs.«122478_j8899172237562_2_alg».proof.Proof.Gen.Pre_finite_inputs
import proofs.«122478_j8899172237562_2_alg».proof.Proof.IdealResult
import proofs.«122478_j8899172237562_2_alg».proof.Proof.IdealGemm1Body
import proofs.«122478_j8899172237562_2_alg».proof.Proof.IdealGemm2Body
import proofs.«122478_j8899172237562_2_alg».proof.Proof.IdealGemm1Value
import proofs.«122478_j8899172237562_2_alg».proof.Proof.IdealGemm2Value
import proofs.«122478_j8899172237562_2_alg».proof.Proof.RefValue
import proofs.«122478_j8899172237562_2_alg».proof.Proof.WordGemm1Body
import proofs.«122478_j8899172237562_2_alg».proof.Proof.WordRun

noncomputable section

namespace Cert.Proof

open Idealize.ShloMosaic Idealize.SL.Sem

/-- The word-level program terminates, nothing faulting, with x, E and W as launched. -/
theorem frame_kernel : Cert.frame_Kernel := fun m ρ _ =>
  Cert.Kernel.Hand.frame (F := Bits) m ρ (fun V c => Cert.Kernel.Hand.body_obligation0 V c)

/-- The idealized program terminates with the result array at the second product of the first, of the launch
    contents of x, W and E, and those three as launched. -/
theorem ideal_result (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v1) = Cert.KernelIdeal.Hand.gMain m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  Cert.KernelIdeal.Hand.result m ρ
    (fun V c => Cert.KernelIdeal.Hand.body_obligation0 V c)
    (fun V c => Cert.KernelIdeal.Hand.body_obligation1 V c)
    (fun V c => Cert.KernelIdeal.Hand.final0 V c)
    (fun V c => Cert.KernelIdeal.Hand.final1 V c)

/-- So it leaves its arguments unchanged. -/
theorem frame_ideal : Cert.frame_KernelIdeal := fun m ρ _ =>
  (θ_run Cert.KernelIdeal.defs _ _).mono (fun _ h c => (h c).2) (ideal_result m ρ)

/-- The reference is three host operations; its run leaves the arguments unchanged. -/
theorem frame_ref : Cert.frame_ReferenceIdeal := fun m ρ _ =>
  (θ_run Cert.ReferenceIdeal.defs _ _).mono (fun _ h c => (h c).2) (Cert.ReferenceIdeal.Value.run (F := Ideal) m ρ)

/-- From memories agreeing on x, E and W both programs end with the result at the same function of them: the
    kernel's by `ideal_result`, the reference's last stage by reading its three operations at an index. -/
theorem algebraic : Cert.algebraic_KernelIdeal_ReferenceIdeal := by
  intro m ρ m' ρ' _ hagree
  refine ⟨fun c => Cert.KernelIdeal.Hand.gMain m c, ideal_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.result_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_ref, trivial, algebraic⟩

end Cert.Proof

end
